-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x2048 : Shape := ⟨2, ![4096, 2048]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x2048 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096x2048 : Shape := ⟨2, ![4096, 2048]⟩
abbrev S4096 : Shape := ⟨1, ![4096]⟩
abbrev S2048x2048 : Shape := ⟨2, ![2048, 2048]⟩
abbrev S2048 : Shape := ⟨1, ![2048]⟩
abbrev S1x2048 : Shape := ⟨2, ![1, 2048]⟩
abbrev S128x4096 : Shape := ⟨2, ![128, 4096]⟩
abbrev S128x2048 : Shape := ⟨2, ![128, 2048]⟩
abbrev S128x2048x2 : Shape := ⟨3, ![128, 2048, 2]⟩
abbrev S128x2048x1 : Shape := ⟨3, ![128, 2048, 1]⟩
abbrev S_ : Shape := ⟨0, ![]⟩
abbrev S4096x2048x1 : Shape := ⟨3, ![4096, 2048, 1]⟩
abbrev S4096x2048x2 : Shape := ⟨3, ![4096, 2048, 2]⟩
abbrev S4096x4096x1 : Shape := ⟨3, ![4096, 4096, 1]⟩

abbrev nBuf : Space → Nat
  | .hbm => 18
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096, .f32⟩
  | .hbm, ⟨3, _⟩ => ⟨S2048x2048, .f32⟩
  | .hbm, ⟨4, _⟩ => ⟨S2048x2048, .bf16⟩
  | .hbm, ⟨5, _⟩ => ⟨S2048x2048, .f32⟩
  | .hbm, ⟨6, _⟩ => ⟨S2048x2048, .bf16⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048x1, .f32⟩
  | .hbm, ⟨15, _⟩ => ⟨S4096x2048x1, .f32⟩
  | .hbm, ⟨16, _⟩ => ⟨S4096x2048x2, .f32⟩
  | .hbm, ⟨17, _⟩ => ⟨S4096x4096x1, .f32⟩
  | .local _ .vmem, ⟨0, _⟩ => ⟨S128x4096, .f32⟩
  | .local _ .vmem, ⟨1, _⟩ => ⟨S128x4096, .f32⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S4096x2048_S2048x2048_0_0 : S4096x2048.Slices ![0, 0] S2048x2048
  bitsLt_bf16_f32 : FTy.bits .bf16 < FTy.bits .f32
  slices_S4096x2048_S2048x2048_2048_0 : S4096x2048.Slices ![2048, 0] S2048x2048
  slices_S4096_S2048_0 : S4096.Slices ![0] S2048
  shapeCasts_S2048_S1x2048 : S2048.ShapeCasts S1x2048
  slices_S4096_S2048_2048 : S4096.Slices ![2048] S2048
  inb_S128x4096_S128x4096_0_0 : ∀ a, (![0, 0] : Fin 2 → Nat) a + S128x4096.size a ≤ S128x4096.size a
  h_S128x4096 : 0 < S128x4096.numel
  shapeCasts_S128x4096_S128x2048x2 : S128x4096.ShapeCasts S128x2048x2
  slices_S128x2048x2_o0_0_1_S128x2048x1 : S128x2048x2.Slices ![0, 0, 1] S128x2048x1
  shapeCasts_S128x2048x1_S128x2048 : S128x2048x1.ShapeCasts S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S128x2048_S128x2048_0_0 : ∀ a, (![0, 0] : Fin 2 → Nat) a + S128x2048.size a ≤ S128x2048.size a
  h_S128x2048 : 0 < S128x2048.numel
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096x1 : S4096x2048x2.ShapeCasts S4096x4096x1
  dot_S128x2048_S2048x2048_S128x2048_1_1_0_0_n_n_wf : DotDims.WF S128x2048 S2048x2048 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S4096x2048.size a
  hwx0_5 : ∀ i : grid0.Coords, EltTy.bits .f32 = 32 ∨ (Rect.block (s := S4096x2048) S128x2048.size (cc0_transform_5 i) (hinb0_5 i)).WholeWords (EltTy.packing .f32)

variable [Facts₀]

def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x2048 : Shape := ⟨2, ![4096, 2048]⟩
abbrev S4096 : Shape := ⟨1, ![4096]⟩
abbrev S4096x2048x2 : Shape := ⟨3, ![4096, 2048, 2]⟩
abbrev S4096x2048x1 : Shape := ⟨3, ![4096, 2048, 1]⟩
abbrev S1x4096 : Shape := ⟨2, ![1, 4096]⟩
abbrev S_ : Shape := ⟨0, ![]⟩
abbrev S4096x4096x1 : Shape := ⟨3, ![4096, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096, .f32⟩
  | .hbm, ⟨3, _⟩ => ⟨S4096x2048x2, .f32⟩
  | .hbm, ⟨4, _⟩ => ⟨S4096x2048x1, .f32⟩
  | .hbm, ⟨5, _⟩ => ⟨S4096x2048, .f32⟩
  | .hbm, ⟨6, _⟩ => ⟨S4096x2048, .f32⟩
  | .hbm, ⟨7, _⟩ => ⟨S4096x4096, .f32⟩
  | .hbm, ⟨8, _⟩ => ⟨S4096x4096, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048x1, .f32⟩
  | .hbm, ⟨19, _⟩ => ⟨S_, .f32⟩
  | .hbm, ⟨20, _⟩ => ⟨S4096x2048x1, .f32⟩
  | .hbm, ⟨21, _⟩ => ⟨S4096x2048x2, .f32⟩
  | .hbm, ⟨22, _⟩ => ⟨S4096x4096x1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_cst : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  shapeCasts_S4096x4096_S4096x2048x2 : S4096x4096.ShapeCasts S4096x2048x2
  slices_S4096x2048x2_S4096x2048x1_0_0_1 : S4096x2048x2.Slices ![0, 0, 1] S4096x2048x1
  shapeCasts_S4096x2048x1_S4096x2048 : S4096x2048x1.ShapeCasts S4096x2048
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  slices_S4096x4096_S4096x2048_0_0 : S4096x4096.Slices ![0, 0] S4096x2048
  slices_S4096x4096_S4096x2048_0_2048 : S4096x4096.Slices ![0, 2048] S4096x2048
  bcast_S4096x2048_S4096x2048x1_0_1 : S4096x2048.BroadcastsInDim S4096x2048x1 (![0, 1] : Fin 2 → Fin S4096x2048x1.rank)
  bcast_S_S4096x2048x1 : S_.BroadcastsInDim S4096x2048x1 (![] : Fin 0 → Fin S4096x2048x1.rank)
  concatenates_S4096x2048x1_S4096x2048x1_S4096x2048x2_d2 : Shape.Concatenates [S4096x2048x1, S4096x2048x1] S4096x2048x2 2
  shapeCasts_S4096x2048x2_S4096x4096x1 : S4096x2048x2.ShapeCasts S4096x4096x1
  dot_S4096x2048_S4096x2048_S4096x4096_1_1_0_0_n_n_wf : DotDims.WF S4096x2048 S4096x2048 S4096x4096 [1] [1] [0] [0] [] []

variable [Facts₀]

def dot_S4096x2048_S4096x2048_S4096x4096_1_1_0_0_n_n : DotDims S4096x2048 S4096x2048 S4096x4096 where
  lhsContracting := [1]
  rhsContracting := [1]
  lhsNonContracting := [0]
  rhsNonContracting := [0]
  lhsBatch := []
  rhsBatch := []
  wf := dot_S4096x2048_S4096x2048_S4096x4096_1_1_0_0_n_n_wf

class Facts : Prop extends Facts₀ where

variable [Facts]
-- ==== Proof.HalfDiff.lean ====
/-
  The mathematics both programs compute, as one function of the three argument arrays, entry by entry on the
  extended reals.

  Write x(b, k) = in_data[b, 2k+1] for the odd columns of the input (k < 2048). For a row b and an output unit d < 4096,
      act(b, d) = max( Σ_k x(b, k) · W[d, k] + bias[d] , 0 ),
  and the array the region (and the reference's subtraction of halves) produces is, for j < 2048,
      halfDiff(b, j) = act(b, j) − act(b, 2048 + j).
  The final result interleaves halfDiff with zeros along the last axis; that re-layout is the same on both sides and is
  never opened.

  The one algebraic law between the two programs: the reference negates the odd columns, takes the product sum, and
  negates the sum again. On the extended reals −Σ_k (−a_k)·b_k = Σ_k a_k·b_k holds when every a_k, b_k is a real number
  (negation does not distribute over an addition of opposite infinities), which is where finiteness of the inputs is used.
-/
import Idealize.ShloMosaic.PureOps.Ideal
import Idealize.ShloMosaic.PureOps.Ideal.Laws
import Idealize.ShloMosaic.Lib.ValueIdx

noncomputable section

namespace Cert.HalfDiff

open Idealize.ShloMosaic Idealize.ShloMosaic.ValueIdx

/-- The input's shape [4096, 4096], the weight's [4096, 2048], the bias's [4096], the region's result [4096, 2048]. -/
abbrev SIn : Shape := ⟨2, ![4096, 4096]⟩
abbrev SWt : Shape := ⟨2, ![4096, 2048]⟩
abbrev SBias : Shape := ⟨1, ![4096]⟩
abbrev SOut : Shape := ⟨2, ![4096, 2048]⟩

/-- Column 2k+1 of the input. -/
def oddCol (k : Fin 2048) : Fin 4096 := ⟨2 * k.val + 1, by have := k.isLt; omega⟩
/-- Output unit j of the first half, and of the second half. -/
def lowUnit (j : Fin 2048) : Fin 4096 := ⟨j.val, by have := j.isLt; omega⟩
def highUnit (j : Fin 2048) : Fin 4096 := ⟨2048 + j.val, by have := j.isLt; omega⟩

/-- Σ_k in[b, 2k+1] · W[d, k]. -/
def oddDot (x : SIn.Idx → EReal) (w : SWt.Idx → EReal) (b d : Fin 4096) : EReal :=
  ∑ k : Fin 2048, x (ix2 b (oddCol k)) * w (ix2 d k)

/-- max(oddDot + bias[d], 0); the zero is kept as the float word both programs print. -/
def act (x : SIn.Idx → EReal) (w : SWt.Idx → EReal) (bias : SBias.Idx → EReal) (b d : Fin 4096) : EReal :=
  max (oddDot x w b d + bias (ix1 d)) (Ideal.ofBits .f32 0x00000000#32)

/-- act at unit j minus act at unit 2048 + j. -/
def halfDiff (x : SIn.Idx → EReal) (w : SWt.Idx → EReal) (bias : SBias.Idx → EReal) : SOut.Idx → EReal :=
  fun i => act x w bias (i 0) (lowUnit (i 1)) - act x w bias (i 0) (highUnit (i 1))

/-- A finite sum of coerced reals is the coerced sum. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- −Σ (−a_k)·b_k = Σ a_k·b_k for real a_k, b_k. -/
theorem neg_sum_neg_mul {ι : Type*} [Fintype ι] (f g : ι → EReal)
    (hf : ∀ k, ∃ r : ℝ, f k = (r : EReal)) (hg : ∀ k, ∃ r : ℝ, g k = (r : EReal)) :
    -(∑ k, -(f k) * g k) = ∑ k, f k * g k := by
  choose a ha using hf
  choose b hb using hg
  have h1 : ∀ k, -(f k) * g k = ((-(a k * b k) : ℝ) : EReal) := fun k => by
    rw [ha k, hb k, ← EReal.coe_neg, ← EReal.coe_mul]; congr 1; ring
  have h2 : ∀ k, f k * g k = ((a k * b k : ℝ) : EReal) := fun k => by
    rw [ha k, hb k, ← EReal.coe_mul]
  simp only [h1, h2, coe_sum, ← EReal.coe_neg, Finset.sum_neg_distrib, neg_neg]

end Cert.HalfDiff

end
-- ==== Proof.FiniteEntries.lean ====
/-
  Under the precondition every entry of the first two argument arrays is a real number.

  The precondition is the conjunction, over the three argument arrays, of "for every entry x, |x| < +∞", where |x| is
  max(x, −x) on the extended reals and +∞ is the float word 0x7F800000. An and-reduction over all axes that comes out 1 had
  a 1 at every position, so each entry satisfies max(x, −x) < ⊤; that excludes x = ⊤ and x = ⊥ (whose negation is ⊤), and
  what is left of the extended reals is the real numbers.
-/
import proofs.«167229_j83580063580715_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteEntries

open Idealize.ShloMosaic Idealize.ShloMosaic.ValueIdx

/-- The float word 0x7F800000 denotes +∞. -/
theorem ofBits_inf : Ideal.ofBits .f32 0x7F800000#32 = (⊤ : EReal) := by
  simp [Ideal.ofBits, Ideal.ieee]

/-- An extended real whose absolute value max(x, −x) is strictly below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- The scalar shape has exactly one index. -/
instance : Subsingleton Cert.Pre_finite_inputs.S_.Idx := ⟨fun a b => funext fun d => d.elim0⟩

/-- If the and-reduction over all axes of the array [|x| < +∞] is 1, every entry of x is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) :
    ∀ i, ∃ r : ℝ, x i = (r : EReal) := by
  intro i
  have hi := Host.reduce_andi_all _ _ hr hu ix0 e i
  rw [cmpf_apply] at hi
  have hc : broadcastInDim s ![] hb (constant (F := Ideal) Cert.Pre_finite_inputs.S_ .f32 0x7F800000#32) i = (⊤ : EReal) := by
    unfold broadcastInDim
    exact ofBits_inf
  rw [hc] at hi
  apply real_of_abs_lt_top
  have : Host.absf x i = max (x i) (-(x i)) := rfl
  rw [this] at hi
  change Ideal.cmp .olt _ _ = 1#1 at hi
  simp only [Ideal.cmp] at hi
  by_contra hn
  simp [hn] at hi

theorem real_entries [Cert.Pre_finite_inputs.Facts]
    (x0 : FVec Ideal Cert.Pre_finite_inputs.S4096x4096 .f32) (x1 : FVec Ideal Cert.Pre_finite_inputs.S4096x2048 .f32)
    (x2 : FVec Ideal Cert.Pre_finite_inputs.S4096 .f32)
    (h : Cert.Pre_finite_inputs.fn (F := Ideal) x0 x1 x2 = fun _ => 1#1) :
    (∀ i, ∃ r : ℝ, x0 i = (r : EReal)) ∧ (∀ i, ∃ r : ℝ, x1 i = (r : EReal)) := by
  have h0 := congrFun h ix0
  dsimp only [Cert.Pre_finite_inputs.fn] at h0
  obtain ⟨h01, _⟩ := IntOp.andi_eq_one.1 h0
  obtain ⟨ha, hb⟩ := IntOp.andi_eq_one.1 h01
  exact ⟨real_of_all x0 _ _ _ ha, real_of_all x1 _ _ _ hb⟩

end Cert.FiniteEntries

end
-- ==== Proof.RefEntry.lean ====
/-
  The reference's subtraction of halves, entry by entry.

  The reference reshapes the input to [4096, 2048, 2], keeps last coordinate 1 and reshapes back, so entry (b, k) of what
  it negates is in_data[b, 2k+1]. It contracts the negated array with all 4096 rows of W over k, negates the
  [4096, 4096] product, adds bias[d] along rows and clamps at zero: entry (b, d) is
      max( −Σ_k (−in_data[b, 2k+1]) · W[d, k] + bias[d] , 0 ),
  which is act(b, d) once −Σ_k (−a_k)·w_k = Σ_k a_k·w_k is applied — the one place the entries must be real numbers.
  Columns [0, 2048) minus columns [2048, 4096) of that array is halfDiff.
-/
import proofs.«167229_j83580063580715_2_alg».proof.Proof.Gen.ReferenceIdeal.Read
import proofs.«167229_j83580063580715_2_alg».proof.Proof.HalfDiff

noncomputable section

namespace Cert.ReferenceIdeal.RefEntry

open Idealize.ShloMosaic Idealize.ShloMosaic.ValueIdx Cert.ReferenceIdeal Cert.HalfDiff

/-- Entry (b, k) of the negated odd-column array comes from entry (b, 2k+1) of the input. -/
theorem oddIdx (p : S4096x4096.Idx) (k : Fin 2048) :
    Read.idx_main_v0 (Read.idx_main_v1 (Read.idx_main_v2 (Read.lidx_main_v4 p k))) = ix2 (p 0) (oddCol k) :=
  funext fun a => Fin.ext (by
    have hb : (p 0).val < 4096 := (p 0).isLt
    have hk : k.val < 2048 := k.isLt
    match a with
    | ⟨0, _⟩ =>
      show ((((p 0).val * 2048 + k.val) / 2048 * 2048 + ((p 0).val * 2048 + k.val) / 1 % 2048) * 2 + (1 + 0)) / 4096 = (p 0).val
      omega
    | ⟨1, _⟩ =>
      show ((((p 0).val * 2048 + k.val) / 2048 * 2048 + ((p 0).val * 2048 + k.val) / 1 % 2048) * 2 + (1 + 0)) % 4096 = 2 * k.val + 1
      omega)

/-- The weight entry met at contraction position k of output entry p is (p 1, k). -/
theorem wtIdx (p : S4096x4096.Idx) (k : Fin 2048) : Read.ridx_main_v4 p k = ix2 (p 1) k :=
  funext fun a => Fin.ext (by
    match a with
    | ⟨0, _⟩ => rfl
    | ⟨1, _⟩ => rfl)

/-- The bias entry added at output entry p is p 1. -/
theorem biasIdx (p : S4096x4096.Idx) : Read.idx_main_v6 (Read.idx_main_v7 p) = ix1 (p 1) :=
  funext fun a => Fin.ext (by
    match a with
    | ⟨0, _⟩ => rfl)

/-- Before the halves are cut: every entry of the rectified array is act at its row and its output unit. -/
theorem relu_eq
    (x0 : (⟨S4096x4096, .f32⟩ : BufTy).Contents (Elt Ideal)) (x1 : (⟨S4096x2048, .f32⟩ : BufTy).Contents (Elt Ideal))
    (x2 : (⟨S4096, .f32⟩ : BufTy).Contents (Elt Ideal))
    (h0 : ∀ i, ∃ r : ℝ, x0 i = (r : EReal)) (h1 : ∀ i, ∃ r : ℝ, x1 i = (r : EReal)) (p : S4096x4096.Idx) :
    Read.val_main_v9 (F := Ideal) x0 x1 x2 p = act x0 x1 x2 (p 0) (p 1) := by
  rw [Read.val_main_v9_apply, Read.val_main_v8_apply, Read.val_main_v5_apply, Read.val_main_v4_apply,
    Read.val_main_v7_apply, Read.val_main_v6_apply, Read.val_main_call0_v0_apply, Read.val_main_call0_cst_apply]
  simp only [Read.val_main_v3_apply, Read.val_main_v2_apply, Read.val_main_v1_apply, Read.val_main_v0_apply,
    oddIdx, wtIdx, biasIdx]
  simp only [Ideal.hostNegf_def, Ideal.negf_def, Ideal.addf_def, Ideal.maximumf_def, Ideal.ofBits_def]
  unfold act oddDot
  have hs : -(∑ k : Fin 2048, -(x0 (ix2 (p 0) (oddCol k)) : EReal) * (x1 (ix2 (p 1) k) : EReal))
      = ∑ k : Fin 2048, (x0 (ix2 (p 0) (oddCol k)) : EReal) * (x1 (ix2 (p 1) k) : EReal) :=
    neg_sum_neg_mul (fun k => x0 (ix2 (p 0) (oddCol k))) (fun k => x1 (ix2 (p 1) k)) (fun k => h0 _) (fun k => h1 _)
  exact congrArg (fun s : EReal => max (s + (x2 (ix1 (p 1)) : EReal)) (Ideal.ofBits .f32 0x00000000#32)) hs

theorem halves_eq
    (x0 : (⟨S4096x4096, .f32⟩ : BufTy).Contents (Elt Ideal)) (x1 : (⟨S4096x2048, .f32⟩ : BufTy).Contents (Elt Ideal))
    (x2 : (⟨S4096, .f32⟩ : BufTy).Contents (Elt Ideal))
    (h0 : ∀ i, ∃ r : ℝ, x0 i = (r : EReal)) (h1 : ∀ i, ∃ r : ℝ, x1 i = (r : EReal)) :
    Cert.ReferenceIdeal.Read.val_main_v12 (F := Ideal) x0 x1 x2 = halfDiff x0 x1 x2 := by
  funext i
  rw [Read.val_main_v12_apply, Read.val_main_v10_apply, Read.val_main_v11_apply,
    relu_eq x0 x1 x2 h0 h1, relu_eq x0 x1 x2 h0 h1, Ideal.subf_def]
  rfl

end Cert.ReferenceIdeal.RefEntry

end
-- ==== Proof.ZeroPlane.lean ====
/-
  The plane of zeros that is interleaved with the result is the same array however it is made: the zero word spread
  to [4096, 2048] and then given a trailing unit axis, or spread to [4096, 2048, 1] at once.
-/
import Idealize.ShloMosaic.PureOps.Ideal
import Idealize.ShloMosaic.Lib.Pipeline.Value
import Idealize.ShloMosaic.Lib.ValueIdx

noncomputable section

namespace Cert.ZeroPlane

open Idealize.ShloMosaic Idealize.ShloMosaic.ValueIdx

abbrev S0 : Shape := ⟨0, ![]⟩
abbrev S2 : Shape := ⟨2, ![4096, 2048]⟩
abbrev S3 : Shape := ⟨3, ![4096, 2048, 1]⟩

theorem zeros_eq (h02 : S0.BroadcastsInDim S2 (![] : Fin 0 → Fin S2.rank))
    (h23 : S2.BroadcastsInDim S3 (![0, 1] : Fin 2 → Fin S3.rank))
    (h03 : S0.BroadcastsInDim S3 (![] : Fin 0 → Fin S3.rank)) :
    broadcastInDim S3 ![0, 1] h23 (broadcastInDim S2 ![] h02 (constant (F := Ideal) S0 .f32 0x00000000#32))
      = broadcastInDim S3 ![] h03 (constant (F := Ideal) S0 .f32 0x00000000#32) := by
  funext i
  unfold broadcastInDim
  rfl

/-- The interleaved shape [4096, 2048, 2] and its re-reading as [4096, 4096, 1]. -/
abbrev S32 : Shape := ⟨3, ![4096, 2048, 2]⟩
abbrev S4 : Shape := ⟨3, ![4096, 4096, 1]⟩

/-- Interleaving two planes along a trailing axis of extent two and re-reading the result as [4096, 4096, 1] is a
    function of the two planes: equal planes give equal results. -/
theorem interleave_congr (hc : Shape.Concatenates [S3, S3] S32 2) (hs : S32.ShapeCasts S4)
    (a a' b b' : S3.Idx → EReal) (ha : a = a') (hb : b = b') :
    shapeCast S4 (concatenate S32 2 [⟨S3, a⟩, ⟨S3, b⟩] hc) hs
      = shapeCast S4 (concatenate S32 2 [⟨S3, a'⟩, ⟨S3, b'⟩] hc) hs := by
  subst ha; subst hb; rfl

end Cert.ZeroPlane

end
-- ==== Proof.BodyEntry.lean ====
/-
  What the kernel body stores, read at one entry (p, q) of its [128, 2048] block.

  The body takes the odd columns of its [128, 4096] input block (a reshape to [128, 2048, 2], the slice at the last
  coordinate 1, a reshape back to [128, 2048]), multiplies them into each of the two [2048, 2048] weight blocks
  contracting the second axis of both, adds the bias row, clamps at zero from below, and subtracts the two results.
  Entry by entry on the extended reals this is
      max(Σ_k x[p, 2k+1] · W1[q, k] + b1[0, q], 0) − max(Σ_k x[p, 2k+1] · W2[q, k] + b2[0, q], 0).
  Each layout operation is read at an index by comparing row-major positions; the product sum is re-indexed from the
  one-axis contraction shape to Fin 2048.
-/
import proofs.«167229_j83580063580715_2_alg».proof.Proof.Gen.KernelIdeal.Skeleton
import proofs.«167229_j83580063580715_2_alg».proof.Proof.HalfDiff
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyEntry

open Idealize.ShloMosaic Idealize.ShloMosaic.ValueIdx Cert.KernelIdeal Cert.HalfDiff

section
variable [Cert.KernelIdeal.Facts]
open Cert.KernelIdeal.Facts₀

/-- The odd-column read: reshape to [128, 2048, 2], take last coordinate 1, reshape to [128, 2048]; entry (p, k) is
    the input at (p, 2k+1), because both reshapes keep the row-major position p·4096 + 2k + 1. -/
theorem oddRead (x0 : Vec Ideal S128x4096 .f32) (p : Fin 128) (k : Fin 2048) :
    shapeCast S128x2048
        (extractStridedSlice S128x2048x1 ![0, 0, 1] (shapeCast S128x2048x2 x0 shapeCasts_S128x4096_S128x2048x2)
          slices_S128x2048x2_o0_0_1_S128x2048x1)
        shapeCasts_S128x2048x1_S128x2048 (ix2 p k)
      = x0 (ix2 p (oddCol k)) := by
  refine (shapeCast_apply _ shapeCasts_S128x2048x1_S128x2048 (ix2 p k) (ix3 p k (0 : Fin 1)) ?_).trans ?_
  · rewrite [Shape.rowMajor_val_three, Shape.rowMajor_val_two]
    show (p.val * 2048 + k.val) * 1 + 0 = p.val * 2048 + k.val
    omega
  refine (extractStridedSlice_apply ![0, 0, 1] _ slices_S128x2048x2_o0_0_1_S128x2048x1 (ix3 p k (0 : Fin 1))
    (ix3 p k (1 : Fin 2)) (fun a => match a with
      | ⟨0, _⟩ => by show p.val = 0 + p.val; omega
      | ⟨1, _⟩ => by show k.val = 0 + k.val; omega
      | ⟨2, _⟩ => by show 1 = 1 + 0; omega)).trans ?_
  exact shapeCast_apply x0 shapeCasts_S128x4096_S128x2048x2 (ix3 p k (1 : Fin 2)) (ix2 p (oddCol k)) (by
    rewrite [Shape.rowMajor_val_two, Shape.rowMajor_val_three]
    show p.val * 4096 + (2 * k.val + 1) = (p.val * 2048 + k.val) * 2 + 1
    omega)

/-- The product's left index at output (p, q) and contraction position c: row p … -/
theorem lhs_row (j : S128x2048.Idx) (c : dot_S128x2048_S2048x2048_S128x2048_1_1_0_0_n_n.contr.Idx) :
    (dot_S128x2048_S2048x2048_S128x2048_1_1_0_0_n_n.lhsIdx j c 0).val = (j 0).val := by
  unfold DotDims.lhsIdx
  rw [dif_neg (show ¬(0 : Fin S128x2048.rank) ∈ dot_S128x2048_S2048x2048_S128x2048_1_1_0_0_n_n.lhsBatch by decide),
    dif_pos (show (0 : Fin S128x2048.rank) ∈ dot_S128x2048_S2048x2048_S128x2048_1_1_0_0_n_n.lhsNonContracting by decide)]
  rfl
/-- … column c. -/
theorem lhs_col (j : S128x2048.Idx) (c : dot_S128x2048_S2048x2048_S128x2048_1_1_0_0_n_n.contr.Idx) :
    (dot_S128x2048_S2048x2048_S128x2048_1_1_0_0_n_n.lhsIdx j c 1).val = (c ⟨0, by decide⟩).val :=
  dot_S128x2048_S2048x2048_S128x2048_1_1_0_0_n_n.lhsIdx_val_of_single rfl j c
/-- The right index: row q (the output's column) … -/
theorem rhs_row (j : S128x2048.Idx) (c : dot_S128x2048_S2048x2048_S128x2048_1_1_0_0_n_n.contr.Idx) :
    (dot_S128x2048_S2048x2048_S128x2048_1_1_0_0_n_n.rhsIdx j c 0).val = (j 1).val := by
  unfold DotDims.rhsIdx
  rw [dif_neg (show ¬(0 : Fin S2048x2048.rank) ∈ dot_S128x2048_S2048x2048_S128x2048_1_1_0_0_n_n.rhsBatch by decide),
    dif_pos (show (0 : Fin S2048x2048.rank) ∈ dot_S128x2048_S2048x2048_S128x2048_1_1_0_0_n_n.rhsNonContracting by decide)]
  rfl
/-- … column c. -/
theorem rhs_col (j : S128x2048.Idx) (c : dot_S128x2048_S2048x2048_S128x2048_1_1_0_0_n_n.contr.Idx) :
    (dot_S128x2048_S2048x2048_S128x2048_1_1_0_0_n_n.rhsIdx j c 1).val = (c ⟨0, by decide⟩).val :=
  dot_S128x2048_S2048x2048_S128x2048_1_1_0_0_n_n.rhsIdx_val_of_single rfl j c

/-- The matrix product into a zero accumulator, contracting the second axis of both operands: entry (p, q) is
    Σ_k lhs[p, k] · rhs[q, k], the sum re-indexed from the one-axis contraction shape to Fin 2048. -/
theorem dotEntry (lhs : FVec Ideal S128x2048 .bf16) (rhs : FVec Ideal S2048x2048 .bf16) (p : Fin 128) (q : Fin 2048) :
    matmul (F := Ideal) dot_S128x2048_S2048x2048_S128x2048_1_1_0_0_n_n none lhs rhs
        (constant (F := Ideal) S128x2048 .f32 0x00000000#32) (ix2 p q)
      = ∑ k : Fin 2048, lhs (ix2 p k) * rhs (ix2 q k) := by
  simp only [matmul]
  rw [Ideal.matmul_constant_zero_apply,
    ← Equiv.sum_comp (ValueIdx.contrEquiv1 dot_S128x2048_S2048x2048_S128x2048_1_1_0_0_n_n 2048 rfl rfl).symm]
  refine Finset.sum_congr rfl fun k _ => ?_
  have hk := ValueIdx.contrEquiv1_symm_val dot_S128x2048_S2048x2048_S128x2048_1_1_0_0_n_n 2048 rfl rfl k
  have el : dot_S128x2048_S2048x2048_S128x2048_1_1_0_0_n_n.lhsIdx (ix2 p q)
      ((ValueIdx.contrEquiv1 dot_S128x2048_S2048x2048_S128x2048_1_1_0_0_n_n 2048 rfl rfl).symm k) = ix2 p k :=
    funext fun a => Fin.ext (by
      match a with
      | ⟨0, _⟩ => exact lhs_row _ _
      | ⟨1, _⟩ => exact (lhs_col _ _).trans hk)
  have er : dot_S128x2048_S2048x2048_S128x2048_1_1_0_0_n_n.rhsIdx (ix2 p q)
      ((ValueIdx.contrEquiv1 dot_S128x2048_S2048x2048_S128x2048_1_1_0_0_n_n 2048 rfl rfl).symm k) = ix2 q k :=
    funext fun a => Fin.ext (by
      match a with
      | ⟨0, _⟩ => exact rhs_row _ _
      | ⟨1, _⟩ => exact (rhs_col _ _).trans hk)
  rw [el, er]

end

section
variable [Cert.KernelIdeal.Facts]
open Cert.KernelIdeal.Facts₀

/-- One branch of the body: product sum of the odd columns with a weight block, plus the bias row, clamped at zero. -/
theorem branchEntry (x0 : FVec Ideal S128x4096 .f32) (w : FVec Ideal S2048x2048 .bf16) (b : FVec Ideal S1x2048 .f32)
    (p : Fin 128) (q : Fin 2048) :
    maximumf
        (addf
          (matmul (F := Ideal) dot_S128x2048_S2048x2048_S128x2048_1_1_0_0_n_n none
            (truncf .bf16
              (shapeCast S128x2048
                (extractStridedSlice S128x2048x1 ![0, 0, 1] (shapeCast S128x2048x2 x0 shapeCasts_S128x4096_S128x2048x2)
                  slices_S128x2048x2_o0_0_1_S128x2048x1)
                shapeCasts_S128x2048x1_S128x2048)
              bitsLt_bf16_f32)
            (shapeCast S2048x2048 w shapeCasts_S2048x2048_S2048x2048)
            (constant (F := Ideal) S128x2048 .f32 0x00000000#32))
          (broadcastTo S128x2048 (shapeCast S1x2048 b shapeCasts_S1x2048_S1x2048) broadcasts_S1x2048_S128x2048))
        (broadcast S128x2048 (Scalar.ofBits (F := Ideal) .f32 0x00000000#32)) (ix2 p q)
      = max ((∑ k : Fin 2048, x0 (ix2 p (oddCol k)) * w (ix2 q k)) + b (ix2 (0 : Fin 1) q))
          (Ideal.ofBits .f32 0x00000000#32) := by
  rw [maximumf_apply, addf_apply, broadcast_apply, shapeCast_self, shapeCast_self, dotEntry,
    broadcastTo_1b_ab_apply]
  refine congrArg₂ max (congrArg₂ (· + ·) (Finset.sum_congr rfl fun k _ => ?_) rfl) rfl
  rw [truncf_apply, oddRead]

end

theorem payload_entry [Cert.KernelIdeal.Facts]
    (x0 : Vec Ideal S128x4096 .f32) (w1 w2 : Vec Ideal S2048x2048 .bf16) (b1 b2 : Vec Ideal S1x2048 .f32)
    (p : Fin 128) (q : Fin 2048) :
    Cert.KernelIdeal.Gen.k0_pay1 (F := Ideal) x0 w1 w2 b1 b2 (ix2 p q)
      = max ((∑ k : Fin 2048, x0 (ix2 p (oddCol k)) * w1 (ix2 q k)) + b1 (ix2 (0 : Fin 1) q)) (Ideal.ofBits .f32 0x00000000#32)
        - max ((∑ k : Fin 2048, x0 (ix2 p (oddCol k)) * w2 (ix2 q k)) + b2 (ix2 (0 : Fin 1) q)) (Ideal.ofBits .f32 0x00000000#32) := by
  unfold Cert.KernelIdeal.Gen.k0_pay1
  rw [subf_apply]
  exact congrArg₂ (· - ·) (branchEntry x0 w1 b1 p q) (branchEntry x0 w2 b2 p q)

end Cert.KernelIdeal.BodyEntry

end
-- ==== Proof.PrefixArrays.lean ====
/-
  What the region finds in the arrays the host lines before it made: the two weight halves are rows [0, 2048) and
  [2048, 4096) of W (the change of float format is the identity on the extended reals), and the two bias rows are entries
  [0, 2048) and [2048, 4096) of the bias laid out as one row of 2048.
-/
import proofs.«167229_j83580063580715_2_alg».proof.Proof.Gen.KernelIdeal.Frame
import proofs.«167229_j83580063580715_2_alg».proof.Proof.HalfDiff
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.PrefixArrays

open Idealize.ShloMosaic Idealize.ShloMosaic.TcCoe Idealize.SL.Sem Idealize.ShloMosaic.ValueIdx
open Cert.KernelIdeal Cert.KernelIdeal.Gen Cert.HalfDiff

variable (m : (ℓ : Loc nD τ sig) → Buf (Elt Ideal) ℓ)

/-- The first weight half as the host lines leave it. -/
theorem found_w1 (c : Dev nD) : (V m c main_v1 : S2048x2048.Idx → EReal)
    = truncf (F := Ideal) .bf16 (extractStridedSlice S2048x2048 ![0, 0] (m ((c : Thread nD τ).loc main_arg1)) Facts₀.slices_S4096x2048_S2048x2048_0_0) Facts₀.bitsLt_bf16_f32 := by
  show StableHlo.after hostOps0 (fun b => m (c, b)) (Proc.devRef .tc main_v1) = _
  after_results

/-- The second weight half as the host lines leave it. -/
theorem found_w2 (c : Dev nD) : (V m c main_v3 : S2048x2048.Idx → EReal)
    = truncf (F := Ideal) .bf16 (extractStridedSlice S2048x2048 ![2048, 0] (m ((c : Thread nD τ).loc main_arg1)) Facts₀.slices_S4096x2048_S2048x2048_2048_0) Facts₀.bitsLt_bf16_f32 := by
  show StableHlo.after hostOps0 (fun b => m (c, b)) (Proc.devRef .tc main_v3) = _
  after_results

/-- The first bias row as the host lines leave it. -/
theorem found_b1 (c : Dev nD) : (V m c main_v5 : S1x2048.Idx → EReal)
    = shapeCast _ (extractStridedSlice S2048 ![0] (m ((c : Thread nD τ).loc main_arg2)) Facts₀.slices_S4096_S2048_0) Facts₀.shapeCasts_S2048_S1x2048 := by
  show StableHlo.after hostOps0 (fun b => m (c, b)) (Proc.devRef .tc main_v5) = _
  after_results
  rfl

/-- The second bias row as the host lines leave it. -/
theorem found_b2 (c : Dev nD) : (V m c main_v7 : S1x2048.Idx → EReal)
    = shapeCast _ (extractStridedSlice S2048 ![2048] (m ((c : Thread nD τ).loc main_arg2)) Facts₀.slices_S4096_S2048_2048) Facts₀.shapeCasts_S2048_S1x2048 := by
  show StableHlo.after hostOps0 (fun b => m (c, b)) (Proc.devRef .tc main_v7) = _
  after_results
  rfl

/-- Entry (q, k) of the first weight half is W[q, k]. -/
theorem found_w1_apply (c : Dev nD) (q k : Fin 2048) :
    (V m c main_v1 : S2048x2048.Idx → EReal) (ix2 q k) = (m ((c : Thread nD τ).loc main_arg1) : S4096x2048.Idx → EReal) (ix2 (lowUnit q) k) := by
  refine (congrFun (found_w1 m c) (ix2 q k)).trans ?_
  show extractStridedSlice S2048x2048 ![0, 0] (m ((c : Thread nD τ).loc main_arg1)) Facts₀.slices_S4096x2048_S2048x2048_0_0 (ix2 q k) = _
  exact extractStridedSlice_apply ![0, 0] _ Facts₀.slices_S4096x2048_S2048x2048_0_0 (ix2 q k) (ix2 (lowUnit q) k) (fun a => match a with
    | ⟨0, _⟩ => by show q.val = 0 + q.val; omega
    | ⟨1, _⟩ => by show k.val = 0 + k.val; omega)

/-- Entry (q, k) of the second weight half is W[2048 + q, k]. -/
theorem found_w2_apply (c : Dev nD) (q k : Fin 2048) :
    (V m c main_v3 : S2048x2048.Idx → EReal) (ix2 q k) = (m ((c : Thread nD τ).loc main_arg1) : S4096x2048.Idx → EReal) (ix2 (highUnit q) k) := by
  refine (congrFun (found_w2 m c) (ix2 q k)).trans ?_
  show extractStridedSlice S2048x2048 ![2048, 0] (m ((c : Thread nD τ).loc main_arg1)) Facts₀.slices_S4096x2048_S2048x2048_2048_0 (ix2 q k) = _
  exact extractStridedSlice_apply ![2048, 0] _ Facts₀.slices_S4096x2048_S2048x2048_2048_0 (ix2 q k) (ix2 (highUnit q) k) (fun a => match a with
    | ⟨0, _⟩ => by show 2048 + q.val = 2048 + q.val; rfl
    | ⟨1, _⟩ => by show k.val = 0 + k.val; omega)

/-- Entry (0, q) of the first bias row is bias[q]. -/
theorem found_b1_apply (c : Dev nD) (q : Fin 2048) :
    (V m c main_v5 : S1x2048.Idx → EReal) (ix2 (0 : Fin 1) q) = (m ((c : Thread nD τ).loc main_arg2) : S4096.Idx → EReal) (ix1 (lowUnit q)) := by
  refine (congrFun (found_b1 m c) (ix2 (0 : Fin 1) q)).trans ?_
  refine (shapeCast_apply _ Facts₀.shapeCasts_S2048_S1x2048 (ix2 (0 : Fin 1) q) (ix1 q) ?_).trans ?_
  · rewrite [Shape.rowMajor_val_one, Shape.rowMajor_val_two]
    show q.val = (0 : Fin 1).val * 2048 + q.val
    simp
  · exact extractStridedSlice_apply ![0] _ Facts₀.slices_S4096_S2048_0 (ix1 q) (ix1 (lowUnit q)) (fun a => match a with
      | ⟨0, _⟩ => by show q.val = 0 + q.val; omega)

/-- Entry (0, q) of the second bias row is bias[2048 + q]. -/
theorem found_b2_apply (c : Dev nD) (q : Fin 2048) :
    (V m c main_v7 : S1x2048.Idx → EReal) (ix2 (0 : Fin 1) q) = (m ((c : Thread nD τ).loc main_arg2) : S4096.Idx → EReal) (ix1 (highUnit q)) := by
  refine (congrFun (found_b2 m c) (ix2 (0 : Fin 1) q)).trans ?_
  refine (shapeCast_apply _ Facts₀.shapeCasts_S2048_S1x2048 (ix2 (0 : Fin 1) q) (ix1 q) ?_).trans ?_
  · rewrite [Shape.rowMajor_val_one, Shape.rowMajor_val_two]
    show q.val = (0 : Fin 1).val * 2048 + q.val
    simp
  · exact extractStridedSlice_apply ![2048] _ Facts₀.slices_S4096_S2048_2048 (ix1 q) (ix1 (highUnit q)) (fun a => match a with
      | ⟨0, _⟩ => by show 2048 + q.val = 2048 + q.val; rfl)

end Cert.KernelIdeal.PrefixArrays

end
-- ==== Proof.RegionArray.lean ====
/-
  The array the region writes, read off the region's run.

  The grid has 32 points; point t loads rows 128·t … 128·t + 127 of the input (all 4096 columns), the two weight
  halves and the two bias rows whole, and writes rows 128·t … 128·t + 127 of the [4096, 2048] result.
  Entry (p, q) of what point t stores is act(128·t + p, q) − act(128·t + p, 2048 + q): the 32 blocks are the
  restrictions of the one function halfDiff of the three argument arrays, and they tile the result array, so after
  the last point the array is halfDiff everywhere.
-/
import proofs.«167229_j83580063580715_2_alg».proof.Proof.Gen.KernelIdeal.Frame
import proofs.«167229_j83580063580715_2_alg».proof.Proof.HalfDiff
import proofs.«167229_j83580063580715_2_alg».proof.Proof.BodyEntry
import proofs.«167229_j83580063580715_2_alg».proof.Proof.PrefixArrays
import Idealize.ShloMosaic.Lib.Pipeline.Value
import Idealize.ShloMosaic.Lib.ValueIdx
import Idealize.ShloMosaic.Lib.Tactic

set_option maxRecDepth 16384

noncomputable section

namespace Cert.KernelIdeal.RegionArray

open Idealize.ShloMosaic Idealize.ShloMosaic.TcCoe Idealize.SL.Sem Idealize.ShloMosaic.ValueIdx
open Idealize.ShloMosaic.Pipeline (Dat)
open Cert.KernelIdeal Cert.KernelIdeal.Gen Cert.HalfDiff Cert.KernelIdeal.PrefixArrays

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the input and the result move one block of 128 rows per point, the weight
    halves and the bias rows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, j) of the input block at point t is the input at row 128·t + p. -/
theorem in_block (c : Dev nD) (t : Fin cfg0.N) (p : Fin 128) (j : Fin 4096) (r : Fin 4096) (hr : r.val = 128 * t.val + p.val) :
    (iblk m c 0 t : S128x4096.Idx → EReal) (ix2 p j) = (m ((c : Thread nD τ).loc main_arg0) : S4096x4096.Idx → EReal) (ix2 r j) := by
  obtain ⟨e0, e1, -⟩ := idx_facts t
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t 0 * 128 + 1 * p.val = r.val; rw [e0, hr]; omega
  | ⟨1, _⟩ => show win0_0.index t 1 * 4096 + 1 * j.val = j.val; rw [e1]; omega

/-- The weight and bias blocks at any point are the whole arrays the host lines made (block (0, 0) of a one-block array). -/
theorem w1_block (c : Dev nD) (t : Fin cfg0.N) (q k : Fin 2048) :
    (iblk m c 1 t : S2048x2048.Idx → EReal) (ix2 q k) = (m ((c : Thread nD τ).loc main_arg1) : S4096x2048.Idx → EReal) (ix2 (lowUnit q) k) := by
  obtain ⟨-, -, e0, e1, -⟩ := idx_facts t
  refine Eq.trans ?_ (found_w1_apply m c q k)
  unfold iblk
  rw [View.read_apply]
  show V m c main_v1 _ = V m c main_v1 _
  congr 1
  funext a
  apply Fin.ext
  match a with
  | ⟨0, _⟩ => show win0_1.index t 0 * 2048 + 1 * q.val = q.val; rw [e0]; omega
  | ⟨1, _⟩ => show win0_1.index t 1 * 2048 + 1 * k.val = k.val; rw [e1]; omega

theorem w2_block (c : Dev nD) (t : Fin cfg0.N) (q k : Fin 2048) :
    (iblk m c 2 t : S2048x2048.Idx → EReal) (ix2 q k) = (m ((c : Thread nD τ).loc main_arg1) : S4096x2048.Idx → EReal) (ix2 (highUnit q) k) := by
  obtain ⟨-, -, -, -, e0, e1, -⟩ := idx_facts t
  refine Eq.trans ?_ (found_w2_apply m c q k)
  unfold iblk
  rw [View.read_apply]
  show V m c main_v3 _ = V m c main_v3 _
  congr 1
  funext a
  apply Fin.ext
  match a with
  | ⟨0, _⟩ => show win0_2.index t 0 * 2048 + 1 * q.val = q.val; rw [e0]; omega
  | ⟨1, _⟩ => show win0_2.index t 1 * 2048 + 1 * k.val = k.val; rw [e1]; omega

theorem b1_block (c : Dev nD) (t : Fin cfg0.N) (q : Fin 2048) :
    (iblk m c 3 t : S1x2048.Idx → EReal) (ix2 (0 : Fin 1) q) = (m ((c : Thread nD τ).loc main_arg2) : S4096.Idx → EReal) (ix1 (lowUnit q)) := by
  obtain ⟨-, -, -, -, -, -, e0, e1, -⟩ := idx_facts t
  refine Eq.trans ?_ (found_b1_apply m c q)
  unfold iblk
  rw [View.read_apply]
  show V m c main_v5 _ = V m c main_v5 _
  congr 1
  funext a
  apply Fin.ext
  match a with
  | ⟨0, _⟩ => show win0_3.index t 0 * 1 + 1 * 0 = 0; rw [e0]
  | ⟨1, _⟩ => show win0_3.index t 1 * 2048 + 1 * q.val = q.val; rw [e1]; omega

theorem b2_block (c : Dev nD) (t : Fin cfg0.N) (q : Fin 2048) :
    (iblk m c 4 t : S1x2048.Idx → EReal) (ix2 (0 : Fin 1) q) = (m ((c : Thread nD τ).loc main_arg2) : S4096.Idx → EReal) (ix1 (highUnit q)) := by
  obtain ⟨-, -, -, -, -, -, -, -, e0, e1, -⟩ := idx_facts t
  refine Eq.trans ?_ (found_b2_apply m c q)
  unfold iblk
  rw [View.read_apply]
  show V m c main_v7 _ = V m c main_v7 _
  congr 1
  funext a
  apply Fin.ext
  match a with
  | ⟨0, _⟩ => show win0_4.index t 0 * 1 + 1 * 0 = 0; rw [e0]
  | ⟨1, _⟩ => show win0_4.index t 1 * 2048 + 1 * q.val = q.val; rw [e1]; omega

/-- The body's stored entry (p, q), when its loaded blocks are rows of the argument arrays: row r of the input, rows q and
    2048 + q of W, entries q and 2048 + q of the bias. -/
theorem block_entry (x0 : Vec Ideal S128x4096 .f32) (w1 w2 : Vec Ideal S2048x2048 .bf16) (b1 b2 : Vec Ideal S1x2048 .f32)
    (X : SIn.Idx → EReal) (W : SWt.Idx → EReal) (B : SBias.Idx → EReal) (r : Fin 4096) (p : Fin 128) (q : Fin 2048)
    (hx : ∀ j, x0 (ix2 p j) = X (ix2 r j))
    (hw1 : ∀ k, w1 (ix2 q k) = W (ix2 (lowUnit q) k)) (hw2 : ∀ k, w2 (ix2 q k) = W (ix2 (highUnit q) k))
    (hb1 : b1 (ix2 (0 : Fin 1) q) = B (ix1 (lowUnit q))) (hb2 : b2 (ix2 (0 : Fin 1) q) = B (ix1 (highUnit q))) :
    k0_pay1 (F := Ideal) x0 w1 w2 b1 b2 (ix2 p q) = halfDiff X W B (ix2 r q) := by
  rw [BodyEntry.payload_entry]
  unfold halfDiff act oddDot
  simp only [hx, hw1, hw2, hb1, hb2]

/-- What point t writes back is block t of halfDiff of the three argument arrays. -/
theorem flushed_eq (c : Dev nD) (t : Fin cfg0.N) :
    (dats m 0 c).flushed 5 t = ((cfg0.win 5).blk t).view.read (Elt Ideal)
      (halfDiff (m ((c : Thread nD τ).loc main_arg0)) (m ((c : Thread nD τ).loc main_arg1)) (m ((c : Thread nD τ).loc main_arg2))) := by
  show (cfg0.win 5).cut (grid0.coords t) ((dats m 0 c).after 5 t) = _
  rw [after0_5]
  unfold out0_5
  rw [View.canon_unit_zero hz]
  simp only [View.ld_unit_zero (S := S128x4096) hz, View.ld_unit_zero (S := S2048x2048) hz, View.ld_unit_zero (S := S1x2048) hz]
  funext y
  have ht : t.val < 32 := lt_of_lt_of_eq t.isLt N_0
  have hy0 : (y 0).val < 128 := (y 0).isLt
  have hy1 : (y 1).val < 2048 := (y 1).isLt
  obtain ⟨-, -, -, -, -, -, -, -, -, -, e0, e1⟩ := idx_facts t
  refine Eq.trans (congrArg (k0_pay1 (F := Ideal) (iblk m c 0 t) (iblk m c 1 t) (iblk m c 2 t) (iblk m c 3 t) (iblk m c 4 t))
    (eq_ix2 (n0 := 128) (n1 := 2048) y)) ?_
  refine (block_entry (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    ⟨128 * t.val + (y 0).val, by omega⟩ (y 0) (y 1)
    (fun j => in_block m c t (y 0) j _ rfl) (fun k => w1_block m c t (y 1) k) (fun k => w2_block m c t (y 1) k)
    (b1_block m c t (y 1)) (b2_block m c t (y 1))).trans ?_
  show halfDiff _ _ _ _ = halfDiff _ _ _ (((cfg0.win 5).blk t).view.emb y)
  congr 1
  funext a
  apply Fin.ext
  match a with
  | ⟨0, _⟩ => show 128 * t.val + (y 0).val = win0_5.index t 0 * 128 + 1 * (y 0).val; rw [e0]; omega
  | ⟨1, _⟩ => show (y 1).val = win0_5.index t 1 * 2048 + 1 * (y 1).val; rw [e1]; omega

/-- Every entry (b, j) of the result array lies in the block of the point b / 128. -/
theorem covered (i : S4096x2048.Idx) :
    ∃ t : Fin cfg0.N, (cfg0.win 5).flush t = true ∧ i ∈ ((cfg0.win 5).blk t).view.set := by
  have hi0 : (i 0).val < 4096 := (i 0).isLt
  have hi1 : (i 1).val < 2048 := (i 1).isLt
  let t : Fin cfg0.N := ⟨(i 0).val / 128, lt_of_lt_of_eq (by omega) N_0.symm⟩
  obtain ⟨-, -, -, -, -, -, -, -, -, -, e0, e1⟩ := idx_facts t
  refine ⟨t, flush0_5 t, ?_⟩
  show i ∈ ((View.whole main_v8).slice (win0_5.rect t)).set
  rw [View.set_slice_whole, Rect.mem_set_unit]
  intro a
  match a with
  | ⟨0, _⟩ =>
    show win0_5.index t 0 * 128 ≤ (i 0).val ∧ (i 0).val < win0_5.index t 0 * 128 + 128
    rw [e0]; show (i 0).val / 128 * 128 ≤ (i 0).val ∧ (i 0).val < (i 0).val / 128 * 128 + 128; omega
  | ⟨1, _⟩ =>
    show win0_5.index t 1 * 2048 ≤ (i 1).val ∧ (i 1).val < win0_5.index t 1 * 2048 + 2048
    rw [e1]; omega

/-- After the last point the region's result array is halfDiff of the three argument arrays. -/
theorem final (c : Dev nD) : (dats m 0 c).arrAt 5 cfg0.N
    = halfDiff (m ((c : Thread nD τ).loc main_arg0)) (m ((c : Thread nD τ).loc main_arg1)) (m ((c : Thread nD τ).loc main_arg2)) :=
  (dats m 0 c).arrAt_eq_of_cover 5 _ (fun t _ => flushed_eq m c t) covered

end Cert.KernelIdeal.RegionArray

end
-- ==== Proof.KernelResult.lean ====
/-
  The idealized kernel's result, read off its run.

  After the region the host lines give the [4096, 2048] array a trailing unit axis, put a plane of zeros beside it along
  that axis ([4096, 2048, 2]: last coordinate 0 holds the region's entry, last coordinate 1 holds zero) and reshape to
  [4096, 4096, 1], which interleaves the region's entries with zeros. The region's array is halfDiff of the three argument
  arrays, so the result is that re-layout of halfDiff; the re-layout itself is never opened. The argument arrays end as
  they began.
-/
import proofs.«167229_j83580063580715_2_alg».proof.Proof.Gen.KernelIdeal.Frame
import proofs.«167229_j83580063580715_2_alg».proof.Proof.HalfDiff
import proofs.«167229_j83580063580715_2_alg».proof.Proof.RegionArray
import Idealize.ShloMosaic.Lib.Pipeline.Value
import Idealize.ShloMosaic.Lib.StableHlo.Run
import Idealize.ShloMosaic.Lib.Tactic

set_option maxRecDepth 16384

noncomputable section

namespace Cert.KernelIdeal.Result

open Idealize.ShloMosaic Idealize.ShloMosaic.TcCoe Idealize.SL.Sem
open Idealize.ShloMosaic.Pipeline (Dat)
open Cert.KernelIdeal Cert.KernelIdeal.Gen Cert.HalfDiff

variable (m : (ℓ : Loc nD τ sig) → Buf (Elt Ideal) ℓ) (ρ : Dev nD → PrngReg)

/-- A [4096, 2048] array interleaved with zeros along a new last axis, as a [4096, 4096, 1] array. -/
abbrev interleaved (a : S4096x2048.Idx → EReal) : S4096x4096x1.Idx → EReal :=
  shapeCast S4096x4096x1 (concatenate S4096x2048x2 2
    [⟨S4096x2048x1, broadcastInDim S4096x2048x1 ![0, 1] Facts₀.bcast_S4096x2048_S4096x2048x1_0_1 a⟩,
     ⟨S4096x2048x1, broadcastInDim S4096x2048x1 ![0, 1] Facts₀.bcast_S4096x2048_S4096x2048x1_0_1
        (broadcastInDim S4096x2048 ![] Facts₀.bcast_S_S4096x2048 (constant (F := Ideal) S_ .f32 0x00000000#32))⟩]
    Facts₀.concatenates_S4096x2048x1_S4096x2048x1_S4096x2048x2_d2) Facts₀.shapeCasts_S4096x2048x2_S4096x4096x1

/-- The host lines after the region, applied to the region's array as the run leaves it. -/
theorem tail_eq (c : Dev nD) :
    Pipeline.afterTail₀ cfgs (dats m) 0 (V0 m) [hostOps1] c main_v13 = interleaved ((dats m 0 c).arrAt 5 cfg0.N) := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_v8)
      = (dats m 0 c).arrAt 5 cfg0.N := Pipeline.withArrays_arr spec0 launch0.win.arr_inj c _ _ 5
  rw [e]
  rfl

/-- The run, read: the result is halfDiff of the argument arrays interleaved with zeros, the arguments unchanged. -/
theorem run : θ_run defs (onTc (τ := τ) (main (F := Ideal))) ⟨m, fun _ => 0, ρ⟩ fun r => ∀ c : Dev nD,
      r.2.mem ((c.tc : Thread nD τ).loc main_v13)
        = interleaved (halfDiff (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v13 (Pipeline.mem_restRefs_of main_v13 (by decide) (by decide))).trans
          ((tail_eq m c).trans (congrArg interleaved (RegionArray.final m c))),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Result

end
-- ==== Proof.lean ====
/-
  The idealized kernel and the idealized reference compute the same [4096, 4096, 1] array on the extended reals.

  With x(b, k) = in_data[b, 2k+1] (the odd columns), act(b, d) = max(Σ_k x(b, k)·W[d, k] + bias[d], 0) and
  halfDiff(b, j) = act(b, j) − act(b, 2048 + j), both results are halfDiff interleaved with zeros along the second axis.
  The kernel computes the product sums directly, one block of 128 rows per grid point (Proof/BodyEntry.lean: the body at an
  entry; Proof/PrefixArrays.lean: the weight halves and bias rows the host lines cut; Proof/RegionArray.lean: the blocks tile
  the array; Proof/KernelResult.lean: the interleaving after the region). The reference negates the odd columns, takes the
  product sums against all of W, negates again, adds the bias, clamps, and subtracts the two column halves
  (Proof/RefEntry.lean); −Σ_k (−x_k)·w_k = Σ_k x_k·w_k needs the x_k, w_k real, which the precondition gives
  (Proof/FiniteEntries.lean). The two planes of zeros are one array (Proof/ZeroPlane.lean).
  The three frames are the generated runs; the idealization rewrote nothing, so it preserves trivially.
-/
import proofs.«167229_j83580063580715_2_alg».proof.Defs
import proofs.«167229_j83580063580715_2_alg».proof.Proof.Gen.Kernel
import proofs.«167229_j83580063580715_2_alg».proof.Proof.Gen.Kernel.Skeleton
import proofs.«167229_j83580063580715_2_alg».proof.Proof.Gen.Kernel.Launch
import proofs.«167229_j83580063580715_2_alg».proof.Proof.Gen.Kernel.Points
import proofs.«167229_j83580063580715_2_alg».proof.Proof.Gen.Kernel.Frame
import proofs.«167229_j83580063580715_2_alg».proof.Proof.Gen.KernelIdeal
import proofs.«167229_j83580063580715_2_alg».proof.Proof.Gen.KernelIdeal.Skeleton
import proofs.«167229_j83580063580715_2_alg».proof.Proof.Gen.KernelIdeal.Launch
import proofs.«167229_j83580063580715_2_alg».proof.Proof.Gen.KernelIdeal.Points
import proofs.«167229_j83580063580715_2_alg».proof.Proof.Gen.KernelIdeal.Frame
import proofs.«167229_j83580063580715_2_alg».proof.Proof.Gen.ReferenceIdeal
import proofs.«167229_j83580063580715_2_alg».proof.Proof.Gen.ReferenceIdeal.Run
import proofs.«167229_j83580063580715_2_alg».proof.Proof.Gen.ReferenceIdeal.Read
import proofs.«167229_j83580063580715_2_alg».proof.Proof.Gen.Pre_finite_inputs
import proofs.«167229_j83580063580715_2_alg».proof.Proof.HalfDiff
import proofs.«167229_j83580063580715_2_alg».proof.Proof.FiniteEntries
import proofs.«167229_j83580063580715_2_alg».proof.Proof.RefEntry
import proofs.«167229_j83580063580715_2_alg».proof.Proof.ZeroPlane
import proofs.«167229_j83580063580715_2_alg».proof.Proof.KernelResult
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at halfDiff of the (agreeing, finite) argument arrays interleaved with zeros. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨h0, h1⟩ := Cert.FiniteEntries.real_entries _ _ _ (hpre c)
  refine (Cert.ReferenceIdeal.Read.val_main_v16_eq _ _ _).trans ?_
  unfold Cert.ReferenceIdeal.Read.val_main_v16 Cert.ReferenceIdeal.Read.val_main_v15 Cert.ReferenceIdeal.Read.val_main_v13
  rw [Cert.ReferenceIdeal.RefEntry.halves_eq _ _ _ h0 h1]
  exact Cert.ZeroPlane.interleave_congr _ _ _ _ _ _ rfl (Cert.ZeroPlane.zeros_eq _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
